-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg6 : FVec F S64 .f32) (main_arg7 : FVec F S64x6 .f32) (main_arg8 : FVec F S6 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x6 .f32 := Host.absf main_arg7
  let main_cst_8 : FVec F S_ .f32 := constant S_ .f32 0x7F800000#32
  let main_v25 : FVec F S64x6 .f32 := broadcastInDim S64x6 ![] bcast_S_S64x6 main_cst_8
  let main_v26 : IVec S64x6 1 := cmpf .olt main_v24 main_v25
  let main_c_9 : IVec S_ 1 := constantI S_ 1 1#1
  let main_v27 : IVec S_ 1 := (fun x v => Host.reduce IntOp.andi x v reducesTo_S64x6_S_d0_1 h_S_) main_v26 main_c_9
  let main_v28 : IVec S_ 1 := andi main_v23 main_v27
  let main_v29 : FVec F S6 .f32 := Host.absf main_arg8
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x6 .f32) (main_arg8 : FVec F S6 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S3200000x64 : Shape := ⟨2, ![3200000, 64]⟩
abbrev S1x64 : Shape := ⟨2, ![1, 64]⟩
abbrev S10000x1 : Shape := ⟨2, ![10000, 1]⟩
abbrev S64x1 : Shape := ⟨2, ![64, 1]⟩
abbrev S1x6 : Shape := ⟨2, ![1, 6]⟩

abbrev nBuf : Space → Nat
  | .hbm => 99
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x6, .f32⟩
  | .hbm, ⟨8, _⟩ => ⟨S6, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .f32⟩
  | .hbm, ⟨14, _⟩ => ⟨S3200000, .f32⟩
  | .hbm, ⟨15, _⟩ => ⟨S_, .f32⟩
  | .hbm, ⟨16, _⟩ => ⟨S100000, .f32⟩
  | .hbm, ⟨17, _⟩ => ⟨S3200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000, .f32⟩
  | .hbm, ⟨43, _⟩ => ⟨S3200000, .f32⟩
  | .hbm, ⟨44, _⟩ => ⟨S3200000x1, .f32⟩
  | .hbm, ⟨45, _⟩ => ⟨S100000x64, .f32⟩
  | .hbm, ⟨46, _⟩ => ⟨S_, .i32⟩
  | .hbm, ⟨47, _⟩ => ⟨S3200000, .i32⟩
  | .hbm, ⟨48, _⟩ => ⟨S3200000, .i1⟩
  | .hbm, ⟨49, _⟩ => ⟨S_, .i32⟩
  | .hbm, ⟨50, _⟩ => ⟨S3200000, .i32⟩
  | .hbm, ⟨51, _⟩ => ⟨S3200000, .i32⟩
  | .hbm, ⟨52, _⟩ => ⟨S3200000, .i32⟩
  | .hbm, ⟨53, _⟩ => ⟨S3200000x1, .i32⟩
  | .hbm, ⟨54, _⟩ => ⟨S3200000x64, .f32⟩
  | .hbm, ⟨55, _⟩ => ⟨S3200000x64, .f32⟩
  | .hbm, ⟨56, _⟩ => ⟨S3200000x64, .f32⟩
  | .hbm, ⟨57, _⟩ => ⟨S_, .f32⟩
  | .hbm, ⟨58, _⟩ => ⟨S100000x64, .f32⟩
  | .hbm, ⟨59, _⟩ => ⟨S3200000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S3200000, .i32⟩
  | .hbm, ⟨66, _⟩ => ⟨S3200000, .i1⟩
  | .hbm, ⟨67, _⟩ => ⟨S_, .i32⟩
  | .hbm, ⟨68, _⟩ => ⟨S3200000, .i32⟩
  | .hbm, ⟨69, _⟩ => ⟨S3200000, .i32⟩
  | .hbm, ⟨70, _⟩ => ⟨S3200000, .i32⟩
  | .hbm, ⟨71, _⟩ => ⟨S3200000x1, .i32⟩
  | .hbm, ⟨72, _⟩ => ⟨S3200000x64, .f32⟩
  | .hbm, ⟨73, _⟩ => ⟨S3200000x64, .f32⟩
  | .hbm, ⟨74, _⟩ => ⟨S3200000x64, .f32⟩
  | .hbm, ⟨75, _⟩ => ⟨S_, .f32⟩
  | .hbm, ⟨76, _⟩ => ⟨S100000x64, .f32⟩
  | .hbm, ⟨77, _⟩ => ⟨S3200000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S_, .f32⟩
  | .hbm, ⟨82, _⟩ => ⟨S64x64, .f32⟩
  | .hbm, ⟨83, _⟩ => ⟨S100000x1, .i32⟩
  | .hbm, ⟨84, _⟩ => ⟨S64x64, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S64, .f32⟩
  | .hbm, ⟨89, _⟩ => ⟨S100000x1, .i32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64x1, .f32⟩
  | .hbm, ⟨95, _⟩ => ⟨S64x64, .f32⟩
  | .hbm, ⟨96, _⟩ => ⟨S64x64, .f32⟩
  | .hbm, ⟨97, _⟩ => ⟨S1x6, .f32⟩
  | .hbm, ⟨98, _⟩ => ⟨S64x6, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S64x6, .f32⟩
  | .local _ .vmem, ⟨30, _⟩ => ⟨S1x6, .f32⟩
  | .local _ .vmem, ⟨31, _⟩ => ⟨S64x6, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x6 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x6 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x6 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  shapeCasts_S3200000_S3200000x1 : S3200000.ShapeCasts S3200000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S10000x1_S10000x64 : S10000x1.Broadcasts S10000x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S6_S1x6 : S6.ShapeCasts S1x6
  shapeCasts_S64x64_S64x64 : S64x64.ShapeCasts S64x64
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S64x6 : S1x6.Broadcasts S64x6
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x6_S64x6_1_0_0_1_n_n_wf : DotDims.WF S64x64 S64x6 S64x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x64.size a ≤ S64x64.size a
  hwx4_0 : ∀ i : grid4.Coords, EltTy.bits .f32 = 32 ∨ (Rect.block (s := S64x64) S64x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x6.size a ≤ S64x6.size a
  hwx4_1 : ∀ i : grid4.Coords, EltTy.bits .f32 = 32 ∨ (Rect.block (s := S64x6) S64x6.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x6.size a ≤ S1x6.size a
  hwx4_2 : ∀ i : grid4.Coords, EltTy.bits .f32 = 32 ∨ (Rect.block (s := S1x6) S1x6.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x6.size a ≤ S64x6.size a
  hwx4_3 : ∀ i : grid4.Coords, EltTy.bits .f32 = 32 ∨ (Rect.block (s := S64x6) S64x6.size (cc4_transform_3 i) (hinb4_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x6_S64x6_1_0_0_1_n_n : DotDims S64x64 S64x6 S64x6 where
  lhsContracting := [1]
  rhsContracting := [0]
  lhsNonContracting := [0]
  rhsNonContracting := [1]
  lhsBatch := []
  rhsBatch := []
  wf := dot_S64x64_S64x6_S64x6_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v70) S64x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x6.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x6.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S64x6.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S3200000x64 : Shape := ⟨2, ![3200000, 64]⟩
abbrev S100000x1 : Shape := ⟨2, ![100000, 1]⟩
abbrev S1x64 : Shape := ⟨2, ![1, 64]⟩
abbrev S64x1 : Shape := ⟨2, ![64, 1]⟩
abbrev S1x6 : Shape := ⟨2, ![1, 6]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x6, .f32⟩
  | 8 => ⟨S6, .f32⟩
  | 9 => ⟨S1x3200000, .i32⟩
  | 10 => ⟨S3200000, .i32⟩
  | 11 => ⟨S1x3200000, .i32⟩
  | 12 => ⟨S3200000, .i32⟩
  | 13 => ⟨S_, .f32⟩
  | 14 => ⟨S3200000, .f32⟩
  | 15 => ⟨S_, .f32⟩
  | 16 => ⟨S100000, .f32⟩
  | 17 => ⟨S3200000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S100000x64, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S3200000, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x64, .f32⟩
  | 52 => ⟨S3200000x1, .f32⟩
  | 53 => ⟨S3200000x64, .f32⟩
  | 54 => ⟨S3200000x64, .f32⟩
  | 55 => ⟨S_, .f32⟩
  | 56 => ⟨S100000x64, .f32⟩
  | 57 => ⟨S3200000x1, .i32⟩
  | 58 => ⟨S100000x64, .f32⟩
  | 59 => ⟨S100000, .f32⟩
  | 60 => ⟨S100000x1, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S_, .i32⟩
  | 72 => ⟨S3200000, .i32⟩
  | 73 => ⟨S3200000, .i1⟩
  | 74 => ⟨S_, .i32⟩
  | 75 => ⟨S3200000, .i32⟩
  | 76 => ⟨S3200000, .i32⟩
  | 77 => ⟨S3200000, .i32⟩
  | 78 => ⟨S3200000x1, .i32⟩
  | 79 => ⟨S3200000, .f32⟩
  | 80 => ⟨S_, .i32⟩
  | 81 => ⟨S3200000, .i32⟩
  | 82 => ⟨S3200000, .i1⟩
  | 83 => ⟨S_, .i32⟩
  | 84 => ⟨S3200000, .i32⟩
  | 85 => ⟨S3200000, .i32⟩
  | 86 => ⟨S3200000, .i32⟩
  | 87 => ⟨S3200000x1, .i32⟩
  | 88 => ⟨S3200000, .f32⟩
  | 89 => ⟨S3200000, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000x64, .f32⟩
  | 99 => ⟨S3200000x1, .f32⟩
  | 100 => ⟨S3200000x64, .f32⟩
  | 101 => ⟨S3200000x64, .f32⟩
  | 102 => ⟨S_, .f32⟩
  | 103 => ⟨S100000x64, .f32⟩
  | 104 => ⟨S3200000x1, .i32⟩
  | 105 => ⟨S100000x64, .f32⟩
  | 106 => ⟨S100000, .f32⟩
  | 107 => ⟨S100000x1, .f32⟩
  | 108 => ⟨S100000x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S_, .f32⟩
  | 118 => ⟨S64x64, .f32⟩
  | 119 => ⟨S100000x1, .i32⟩
  | 120 => ⟨S64x64, .f32⟩
  | 121 => ⟨S_, .f32⟩
  | 122 => ⟨S100000, .f32⟩
  | 123 => ⟨S_, .f32⟩
  | 124 => ⟨S64, .f32⟩
  | 125 => ⟨S100000x1, .i32⟩
  | 126 => ⟨S64, .f32⟩
  | 127 => ⟨S_, .f32⟩
  | _ => ⟨S100000x128, .f32⟩

abbrev hbmTy0_1 (i : Nat) : BufTy := match i % 128 with
  | 0 => ⟨S64, .f32⟩
  | 1 => ⟨S64, .f32⟩
  | 2 => ⟨S64x1, .f32⟩
  | 3 => ⟨S64x64, .f32⟩
  | 4 => ⟨S64x64, .f32⟩
  | 5 => ⟨S64x6, .f32⟩
  | 6 => ⟨S1x6, .f32⟩
  | 7 => ⟨S64x6, .f32⟩
  | 8 => ⟨S64x6, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call1_cst : Ref sig .tc := ⟨.hbm, 114, rfl⟩
abbrev main_call1_v0 : Ref sig .tc := ⟨.hbm, 115, rfl⟩
abbrev main_v86 : Ref sig .tc := ⟨.hbm, 116, rfl⟩
abbrev main_cst_15 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S6_S1x6_1 : S6.BroadcastsInDim S1x6 (![1] : Fin 1 → Fin S1x6.rank)
  bcast_S1x6_S64x6_0_1 : S1x6.BroadcastsInDim S64x6 (![0, 1] : Fin 2 → Fin S64x6.rank)
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x6_S64x6_1_0_0_1_n_n_wf : DotDims.WF S64x64 S64x6 S64x6 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x6_S64x6_1_0_0_1_n_n : DotDims S64x64 S64x6 S64x6 where
  lhsContracting := [1]
  rhsContracting := [0]
  lhsNonContracting := [0]
  rhsNonContracting := [1]
  lhsBatch := []
  rhsBatch := []
  wf := dot_S64x64_S64x6_S64x6_1_0_0_1_n_n_wf

class Facts : Prop extends Facts₀ where

variable [Facts]
-- ==== Proof.KernelRun.lean ====
/-
  The idealized kernel's run, with its result named.  The program is nine segments: four stretches of host
  operations and five kernel regions.  The generated frame proof walks the buffer contents through these segments
  (the contents at each boundary are a fold from the launch memory) and reads the final state against the contents at
  the last boundary.  Here the same walk is read at one more buffer: the program's result, which after the run holds
  the last boundary's contents at that buffer.  The argument arrays end as launched, as in the frame.
-/
import proofs.«148578_j72164040507601_1_alg».proof.Proof.Gen.KernelIdeal.Frame

set_option maxRecDepth 16384

noncomputable section

namespace Cert.KernelIdeal.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and every argument array as launched. -/
theorem run_result : θ_run defs (onTc (τ := τ) (main (F := F))) ⟨m, fun _ => 0, ρ⟩ (fun r => ∀ c : Dev nD,
      r.2.mem ((c.tc : Thread nD τ).loc main_v72) = W9 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v72 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Stage

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.Region0.lean ====
/-
  The first kernel region: a row-blocked matrix product.  The grid has ten points; point t loads rows
  10000·t … 10000·t + 9999 of the left array (all 128 columns) and the whole right array, multiplies them into a zero
  accumulator, and writes the 10000 × 64 block back at the same rows.  Entry (p, q) of that block is the sum over
  k < 128 of left(10000·t + p, k) · right(k, q): the same sum that defines entry (10000·t + p, q) of the whole
  product.  The ten blocks tile the 100000 rows, so after the region the output array is the whole product of the two
  arrays as the region found them (a change of float format is the identity on the extended reals, so the bf16
  operands are the f32 ones).
-/
import proofs.«148578_j72164040507601_1_alg».proof.Proof.Gen.KernelIdeal.Frame
import proofs.«148578_j72164040507601_1_alg».proof.Proof.Gen.ReferenceIdeal.Read
import proofs.«148578_j72164040507601_1_alg».proof.Proof.LibPlainDot
import Idealize.ShloMosaic.Lib.Pipeline.Value
import Idealize.ShloMosaic.Lib.ValueIdx

set_option maxRecDepth 16384

noncomputable section

namespace Cert.KernelIdeal.Stage

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The zero offset of a whole-block access. -/
theorem hz : (![0, 0] : Fin 2 → Nat) = fun _ => 0 := funext fun a => by fin_cases a <;> rfl

/-- The block index maps over the grid: the left and output windows move down the rows with the point, the right
    window stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block product's left index keeps the output row. -/
theorem dotL0 (j : S10000x64.Idx) (k : dot_S10000x128_S128x64_S10000x64_1_0_0_1_n_n.contr.Idx) :
    (dot_S10000x128_S128x64_S10000x64_1_0_0_1_n_n.lhsIdx j k 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The block product's right index keeps the output column. -/
theorem dotR0 (j : S10000x64.Idx) (k : dot_S10000x128_S128x64_S10000x64_1_0_0_1_n_n.contr.Idx) :
    (dot_S10000x128_S128x64_S10000x64_1_0_0_1_n_n.rhsIdx j k 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's stored value at entry (p, q): the sum over k of left(p, k) · right(k, q). -/
theorem pay0_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  exact Cert.LibPlainDot.matmul_zero_apply dot_S10000x128_S128x64_S10000x64_1_0_0_1_n_n rfl rfl rfl rfl dotL0 dotR0 none x0 x1 p q

/-- What point t writes back is block t of the whole product. -/
theorem flushed0 (c : Dev nD) (t : Fin cfg0.N) :
    (dat0 V c).flushed 2 t = ((cfg0.win 2).blk t).view.read (Elt Ideal)
      (Cert.ReferenceIdeal.Read.val_main_v11 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e00, e01, e10, e11, e20, e21⟩ := idx_facts0 t
  funext j
  show k0_pay1 (iblk0 V c 0 t) (iblk0 V c 1 t) j
    = Cert.ReferenceIdeal.Read.val_main_v11 (V c main_arg0) (V c main_arg3) (((cfg0.win 2).blk t).view.emb j)
  refine (congrArg (k0_pay1 (iblk0 V c 0 t) (iblk0 V c 1 t)) (eq_ix2 j)).trans ?_
  refine (pay0_apply _ _ (j 0) (j 1)).trans ?_
  refine ((Cert.ReferenceIdeal.Read.val_main_v11_apply _ _ _).trans ?_).symm
  refine Finset.sum_congr rfl fun k _ => ?_
  refine congrArg₂ (· * ·) ?_ ?_
  · show V c main_arg0 _ = V c main_arg0 (((cfg0.win 0).blk t).view.emb (ix2 (j 0) k))
    refine congrArg (V c main_arg0) ?_
    funext a; apply Fin.ext
    match a with
    | ⟨0, _⟩ =>
      show win0_2.index t (0 : Fin 2) * 10000 + 1 * (j 0).val = win0_0.index t (0 : Fin 2) * 10000 + 1 * (j 0).val
      omega
    | ⟨1, _⟩ =>
      show k.val = win0_0.index t (1 : Fin 2) * 128 + 1 * k.val
      omega
  · show V c main_arg3 _ = V c main_arg3 (((cfg0.win 1).blk t).view.emb (ix2 k (j 1)))
    refine congrArg (V c main_arg3) ?_
    funext a; apply Fin.ext
    match a with
    | ⟨0, _⟩ =>
      show k.val = win0_1.index t (0 : Fin 2) * 128 + 1 * k.val
      omega
    | ⟨1, _⟩ =>
      show win0_2.index t (1 : Fin 2) * 64 + 1 * (j 1).val = win0_1.index t (1 : Fin 2) * 64 + 1 * (j 1).val
      omega

/-- An index of the output array is in point t's block iff each coordinate is in the block's range. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Row r lies in the block of point r / 10000: the blocks tile the array. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 10000 < cfg0.N := by show _ < grid0.N; rw [N_0]; omega
  refine ⟨⟨(i 0).val / 10000, ht⟩, flush0_2 _, ?_⟩
  rw [mem_blk0]
  obtain ⟨-, -, -, -, e20, e21⟩ := idx_facts0 ⟨(i 0).val / 10000, ht⟩
  intro a
  match a with
  | ⟨0, _⟩ =>
    show win0_2.index _ (0 : Fin 2) * 10000 ≤ (i 0).val ∧ (i 0).val < win0_2.index _ (0 : Fin 2) * 10000 + 10000
    rw [e20]; show (i 0).val / 10000 * 10000 ≤ (i 0).val ∧ (i 0).val < (i 0).val / 10000 * 10000 + 10000
    omega
  | ⟨1, _⟩ =>
    show win0_2.index _ (1 : Fin 2) * 64 ≤ (i 1).val ∧ (i 1).val < win0_2.index _ (1 : Fin 2) * 64 + 64
    rw [e21]; omega

/-- After the region the output array is the whole product of the two arrays the region found. -/
theorem final0 (c : Dev nD) :
    (dat0 V c).arrAt 2 cfg0.N = Cert.ReferenceIdeal.Read.val_main_v11 (F := Ideal) (V c main_arg0) (V c main_arg3) :=
  (dat0 V c).arrAt_eq_of_cover 2 _ (fun t _ => flushed0 V c t) cover0

end Cert.KernelIdeal.Stage

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Region1.lean ====
/-
  The second kernel region: the first layer's combination, blocked by rows.  Point t of the ten loads rows
  10000·t … 10000·t + 9999 of the aggregated messages, of the features and of the self-loop column, and the one bias
  row, and writes max((agg + h · s) + b, 0) back at the same rows, the column s spread over the 64 features and the row b
  over the rows.  Entry (p, q) of the block depends on agg and h at (10000·t + p, q), on s at (10000·t + p, 0) and on b
  at (0, q): the same entries the whole-array combination reads at (10000·t + p, q).  The blocks tile the rows, so the
  output array ends as the whole-array combination of the four arrays the region found.
-/
import proofs.«148578_j72164040507601_1_alg».proof.Proof.Gen.KernelIdeal.Frame
import proofs.«148578_j72164040507601_1_alg».proof.Proof.Gen.ReferenceIdeal.Read
import proofs.«148578_j72164040507601_1_alg».proof.Proof.LibUnitAxes
import proofs.«148578_j72164040507601_1_alg».proof.Proof.Region0
import Idealize.ShloMosaic.Lib.Pipeline.Value
import Idealize.ShloMosaic.Lib.ValueIdx
import Idealize.ShloMosaic.Lib.ValueLayout

set_option maxRecDepth 16384

noncomputable section

namespace Cert.KernelIdeal.Stage

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The layer's combination over whole arrays, written with the host's operations: the aggregated messages plus the
    features scaled by the self-loop column, plus the bias row, clamped below at zero. -/
abbrev combineW (agg h : FVec Ideal Cert.ReferenceIdeal.S100000x64 .f32) (sl : FVec Ideal Cert.ReferenceIdeal.S100000x1 .f32)
    (b : FVec Ideal Cert.ReferenceIdeal.S1x64 .f32) : FVec Ideal Cert.ReferenceIdeal.S100000x64 .f32 :=
  maximumf (addf (addf agg (mulf h (broadcastInDim Cert.ReferenceIdeal.S100000x64 ![0, 1] Cert.ReferenceIdeal.Gen.bcast_S100000x1_S100000x64_0_1 sl)))
      (broadcastInDim Cert.ReferenceIdeal.S100000x64 ![0, 1] Cert.ReferenceIdeal.Gen.bcast_S1x64_S100000x64_0_1 b))
    (broadcastInDim Cert.ReferenceIdeal.S100000x64 ![] Cert.ReferenceIdeal.Gen.bcast_S_S100000x64 (constant Cert.ReferenceIdeal.S_ .f32 0x00000000#32))

/-- The combination at entry (p, q): max((agg(p, q) + h(p, q) · s(p, 0)) + b(0, q), 0). -/
theorem combineW_apply (agg h : FVec Ideal Cert.ReferenceIdeal.S100000x64 .f32) (sl : FVec Ideal Cert.ReferenceIdeal.S100000x1 .f32)
    (b : FVec Ideal Cert.ReferenceIdeal.S1x64 .f32) (p : Fin 100000) (q : Fin 64) :
    combineW agg h sl b (ix2 p q)
      = max (agg (ix2 p q) + h (ix2 p q) * sl (ix2 p (0 : Fin 1)) + b (ix2 (0 : Fin 1) q)) (Ideal.ofBits .f32 0x00000000#32) := by
  simp only [maximumf_apply, addf_apply, mulf_apply]
  rw [Cert.LibUnitAxes.broadcastInDim_a1_ab_apply, Cert.LibUnitAxes.broadcastInDim_1b_ab_apply, Cert.LibUnitAxes.broadcastInDim_scalar_apply]
  rfl

/-- The block index maps over the grid: the two 64-column inputs, the self-loop column and the output move down the
    rows with the point; the bias row stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's stored value at entry (p, q): max((agg(p, q) + h(p, q) · s(p, 0)) + b(0, q), 0). -/
theorem pay1_apply (v0 v2 : Vec Ideal S10000x64 .f32) (v4 : Vec Ideal S10000x1 .f32) (v6 : Vec Ideal S1x64 .f32)
    (p : Fin 10000) (q : Fin 64) :
    k1_pay1 (F := Ideal) v0 v2 v4 v6 (ix2 p q)
      = max (v0 (ix2 p q) + v2 (ix2 p q) * v4 (ix2 p (0 : Fin 1)) + v6 (ix2 (0 : Fin 1) q)) (Ideal.ofBits .f32 0x00000000#32) := by
  unfold k1_pay1
  simp only [shapeCast_self, maximumf_apply, addf_apply, mulf_apply, broadcast_apply]
  rw [Cert.LibUnitAxes.broadcastTo_a1_ab_apply, broadcastTo_1b_ab_apply]
  rfl

/-- What point t writes back is block t of the whole-array combination. -/
theorem flushed1 (c : Dev nD) (t : Fin cfg1.N) :
    (dat1 V c).flushed 4 t = ((cfg1.win 4).blk t).view.read (Elt Ideal)
      (combineW (V c main_v41) (V c main_v29) (V c main_v12) (V c main_v42)) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  obtain ⟨e00, e01, e10, e11, e20, e21, e30, e31, e40, e41⟩ := idx_facts1 t
  funext j
  show k1_pay1 (iblk1 V c 0 t) (iblk1 V c 1 t) (iblk1 V c 2 t) (iblk1 V c 3 t) j
    = combineW (V c main_v41) (V c main_v29) (V c main_v12) (V c main_v42) (((cfg1.win 4).blk t).view.emb j)
  refine (congrArg (k1_pay1 (iblk1 V c 0 t) (iblk1 V c 1 t) (iblk1 V c 2 t) (iblk1 V c 3 t)) (eq_ix2 j)).trans ?_
  refine (pay1_apply _ _ _ _ (j 0) (j 1)).trans ?_
  refine Eq.symm (((congrArg (combineW (V c main_v41) (V c main_v29) (V c main_v12) (V c main_v42))
    (eq_ix2 (((cfg1.win 4).blk t).view.emb j))).trans (combineW_apply _ _ _ _ _ _)).trans ?_)
  refine congrArg₂ max (congrArg₂ (· + ·) (congrArg₂ (· + ·) ?_ (congrArg₂ (· * ·) ?_ ?_)) ?_) rfl
  · show V c main_v41 _ = V c main_v41 (((cfg1.win 0).blk t).view.emb (ix2 (j 0) (j 1)))
    refine congrArg (V c main_v41) ?_
    funext a; apply Fin.ext
    match a with
    | ⟨0, _⟩ =>
      show win1_4.index t (0 : Fin 2) * 10000 + 1 * (j 0).val = win1_0.index t (0 : Fin 2) * 10000 + 1 * (j 0).val
      omega
    | ⟨1, _⟩ =>
      show win1_4.index t (1 : Fin 2) * 64 + 1 * (j 1).val = win1_0.index t (1 : Fin 2) * 64 + 1 * (j 1).val
      omega
  · show V c main_v29 _ = V c main_v29 (((cfg1.win 1).blk t).view.emb (ix2 (j 0) (j 1)))
    refine congrArg (V c main_v29) ?_
    funext a; apply Fin.ext
    match a with
    | ⟨0, _⟩ =>
      show win1_4.index t (0 : Fin 2) * 10000 + 1 * (j 0).val = win1_1.index t (0 : Fin 2) * 10000 + 1 * (j 0).val
      omega
    | ⟨1, _⟩ =>
      show win1_4.index t (1 : Fin 2) * 64 + 1 * (j 1).val = win1_1.index t (1 : Fin 2) * 64 + 1 * (j 1).val
      omega
  · show V c main_v12 _ = V c main_v12 (((cfg1.win 2).blk t).view.emb (ix2 (j 0) (0 : Fin 1)))
    refine congrArg (V c main_v12) ?_
    funext a; apply Fin.ext
    match a with
    | ⟨0, _⟩ =>
      show win1_4.index t (0 : Fin 2) * 10000 + 1 * (j 0).val = win1_2.index t (0 : Fin 2) * 10000 + 1 * (j 0).val
      omega
    | ⟨1, _⟩ =>
      show 0 = win1_2.index t (1 : Fin 2) * 1 + 1 * 0
      omega
  · show V c main_v42 _ = V c main_v42 (((cfg1.win 3).blk t).view.emb (ix2 (0 : Fin 1) (j 1)))
    refine congrArg (V c main_v42) ?_
    funext a; apply Fin.ext
    match a with
    | ⟨0, _⟩ =>
      show 0 = win1_3.index t (0 : Fin 2) * 1 + 1 * 0
      omega
    | ⟨1, _⟩ =>
      show win1_4.index t (1 : Fin 2) * 64 + 1 * (j 1).val = win1_3.index t (1 : Fin 2) * 64 + 1 * (j 1).val
      omega

/-- An index of the output array is in point t's block iff each coordinate is in the block's range. -/
theorem mem_blk1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v43).slice (win1_4.rect t)).set ↔ _
  rw [View.set_slice_whole, Rect.mem_set_unit]
  exact Iff.rfl

/-- Row r lies in the block of point r / 10000: the blocks tile the array. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have ht : (i 0).val / 10000 < cfg1.N := by show _ < grid1.N; rw [N_1]; omega
  refine ⟨⟨(i 0).val / 10000, ht⟩, flush1_4 _, ?_⟩
  rw [mem_blk1]
  obtain ⟨-, -, -, -, -, -, -, -, e40, e41⟩ := idx_facts1 ⟨(i 0).val / 10000, ht⟩
  intro a
  match a with
  | ⟨0, _⟩ =>
    show win1_4.index _ (0 : Fin 2) * 10000 ≤ (i 0).val ∧ (i 0).val < win1_4.index _ (0 : Fin 2) * 10000 + 10000
    rw [e40]; show (i 0).val / 10000 * 10000 ≤ (i 0).val ∧ (i 0).val < (i 0).val / 10000 * 10000 + 10000
    omega
  | ⟨1, _⟩ =>
    show win1_4.index _ (1 : Fin 2) * 64 ≤ (i 1).val ∧ (i 1).val < win1_4.index _ (1 : Fin 2) * 64 + 64
    rw [e41]; omega

/-- After the region the output array is the whole-array combination of the four arrays the region found. -/
theorem final1 (c : Dev nD) :
    (dat1 V c).arrAt 4 cfg1.N = combineW (V c main_v41) (V c main_v29) (V c main_v12) (V c main_v42) :=
  (dat1 V c).arrAt_eq_of_cover 4 _ (fun t _ => flushed1 V c t) cover1

end Cert.KernelIdeal.Stage

end
-- ==== Proof.Region2.lean ====
/-
  The third kernel region: the second layer's row-blocked matrix product.  Point t of the ten loads rows
  10000·t … 10000·t + 9999 of the 100000 × 64 left array and the whole 64 × 64 right array and writes their product
  back at the same rows; entry (p, q) of the block is the sum over k < 64 of left(10000·t + p, k) · right(k, q), which
  is entry (10000·t + p, q) of the whole product.  The blocks tile the rows, so the output array ends as the whole
  product of the two arrays the region found.
-/
import proofs.«148578_j72164040507601_1_alg».proof.Proof.Gen.KernelIdeal.Frame
import proofs.«148578_j72164040507601_1_alg».proof.Proof.Gen.ReferenceIdeal.Read
import proofs.«148578_j72164040507601_1_alg».proof.Proof.LibPlainDot
import proofs.«148578_j72164040507601_1_alg».proof.Proof.Region0
import Idealize.ShloMosaic.Lib.Pipeline.Value
import Idealize.ShloMosaic.Lib.ValueIdx

set_option maxRecDepth 16384

noncomputable section

namespace Cert.KernelIdeal.Stage

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The whole [100000, 64] × [64, 64] product, as the host computes it. -/
abbrev prodB (l : FVec Ideal Cert.ReferenceIdeal.S100000x64 .f32) (r : FVec Ideal Cert.ReferenceIdeal.S64x64 .f32) :
    FVec Ideal Cert.ReferenceIdeal.S100000x64 .f32 :=
  Host.dotGeneral Cert.ReferenceIdeal.dot_S100000x64_S64x64_S100000x64_1_0_0_1_n_n none l r

/-- The whole product at entry (p, q): the sum over k of left(p, k) · right(k, q). -/
theorem prodB_apply (l : FVec Ideal Cert.ReferenceIdeal.S100000x64 .f32) (r : FVec Ideal Cert.ReferenceIdeal.S64x64 .f32)
    (p : Fin 100000) (q : Fin 64) : prodB l r (ix2 p q) = ∑ k : Fin 64, l (ix2 p k) * r (ix2 k q) :=
  Cert.LibPlainDot.dotGeneral_apply Cert.ReferenceIdeal.dot_S100000x64_S64x64_S100000x64_1_0_0_1_n_n rfl rfl rfl rfl
    Cert.ReferenceIdeal.Read.lhs_main_v49_0 Cert.ReferenceIdeal.Read.rhs_main_v49_1 none .single l r p q

/-- The block index maps over the grid: the left and output windows move down the rows with the point, the right
    window stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block product's left index keeps the output row. -/
theorem dotL2 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The block product's right index keeps the output column. -/
theorem dotR2 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's stored value at entry (p, q): the sum over k of left(p, k) · right(k, q). -/
theorem pay2_apply (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  unfold k2_pay1
  rw [shapeCast_self]
  exact Cert.LibPlainDot.matmul_zero_apply dot_S10000x64_S64x64_S10000x64_1_0_0_1_n_n rfl rfl rfl rfl dotL2 dotR2 none x0 x1 p q

/-- What point t writes back is block t of the whole product. -/
theorem flushed2 (c : Dev nD) (t : Fin cfg2.N) :
    (dat2 V c).flushed 2 t = ((cfg2.win 2).blk t).view.read (Elt Ideal) (prodB (V c main_v43) (V c main_arg5)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e00, e01, e10, e11, e20, e21⟩ := idx_facts2 t
  funext j
  show k2_pay1 (iblk2 V c 0 t) (iblk2 V c 1 t) j
    = prodB (V c main_v43) (V c main_arg5) (((cfg2.win 2).blk t).view.emb j)
  refine (congrArg (k2_pay1 (iblk2 V c 0 t) (iblk2 V c 1 t)) (eq_ix2 j)).trans ?_
  refine (pay2_apply _ _ (j 0) (j 1)).trans ?_
  refine Eq.symm (((congrArg (prodB (V c main_v43) (V c main_arg5)) (eq_ix2 (((cfg2.win 2).blk t).view.emb j))).trans
    (prodB_apply _ _ _ _)).trans ?_)
  refine Finset.sum_congr rfl fun k _ => ?_
  refine congrArg₂ (· * ·) ?_ ?_
  · show V c main_v43 _ = V c main_v43 (((cfg2.win 0).blk t).view.emb (ix2 (j 0) k))
    refine congrArg (V c main_v43) ?_
    funext a; apply Fin.ext
    match a with
    | ⟨0, _⟩ =>
      show win2_2.index t (0 : Fin 2) * 10000 + 1 * (j 0).val = win2_0.index t (0 : Fin 2) * 10000 + 1 * (j 0).val
      omega
    | ⟨1, _⟩ =>
      show k.val = win2_0.index t (1 : Fin 2) * 64 + 1 * k.val
      omega
  · show V c main_arg5 _ = V c main_arg5 (((cfg2.win 1).blk t).view.emb (ix2 k (j 1)))
    refine congrArg (V c main_arg5) ?_
    funext a; apply Fin.ext
    match a with
    | ⟨0, _⟩ =>
      show k.val = win2_1.index t (0 : Fin 2) * 64 + 1 * k.val
      omega
    | ⟨1, _⟩ =>
      show win2_2.index t (1 : Fin 2) * 64 + 1 * (j 1).val = win2_1.index t (1 : Fin 2) * 64 + 1 * (j 1).val
      omega

/-- An index of the output array is in point t's block iff each coordinate is in the block's range. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- Row r lies in the block of point r / 10000: the blocks tile the array. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 10000 < cfg2.N := by show _ < grid2.N; rw [N_2]; omega
  refine ⟨⟨(i 0).val / 10000, ht⟩, flush2_2 _, ?_⟩
  rw [mem_blk2]
  obtain ⟨-, -, -, -, e20, e21⟩ := idx_facts2 ⟨(i 0).val / 10000, ht⟩
  intro a
  match a with
  | ⟨0, _⟩ =>
    show win2_2.index _ (0 : Fin 2) * 10000 ≤ (i 0).val ∧ (i 0).val < win2_2.index _ (0 : Fin 2) * 10000 + 10000
    rw [e20]; show (i 0).val / 10000 * 10000 ≤ (i 0).val ∧ (i 0).val < (i 0).val / 10000 * 10000 + 10000
    omega
  | ⟨1, _⟩ =>
    show win2_2.index _ (1 : Fin 2) * 64 ≤ (i 1).val ∧ (i 1).val < win2_2.index _ (1 : Fin 2) * 64 + 64
    rw [e21]; omega

/-- After the region the output array is the whole product of the two arrays the region found. -/
theorem final2 (c : Dev nD) : (dat2 V c).arrAt 2 cfg2.N = prodB (V c main_v43) (V c main_arg5) :=
  (dat2 V c).arrAt_eq_of_cover 2 _ (fun t _ => flushed2 V c t) cover2

end Cert.KernelIdeal.Stage

end
-- ==== Proof.Region3.lean ====
/-
  The fourth kernel region: the second layer's combination, blocked by rows exactly as the first layer's —
  max((agg + h · s) + b, 0) on rows 10000·t … 10000·t + 9999 at point t, with the column s spread over the features and
  the row b over the rows.  The blocks tile the rows, so the output array ends as the whole-array combination of the
  four arrays the region found.
-/
import proofs.«148578_j72164040507601_1_alg».proof.Proof.Gen.KernelIdeal.Frame
import proofs.«148578_j72164040507601_1_alg».proof.Proof.Gen.ReferenceIdeal.Read
import proofs.«148578_j72164040507601_1_alg».proof.Proof.LibUnitAxes
import proofs.«148578_j72164040507601_1_alg».proof.Proof.Region1
import Idealize.ShloMosaic.Lib.Pipeline.Value
import Idealize.ShloMosaic.Lib.ValueIdx
import Idealize.ShloMosaic.Lib.ValueLayout

set_option maxRecDepth 16384

noncomputable section

namespace Cert.KernelIdeal.Stage

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The block index maps over the grid: the two 64-column inputs, the self-loop column and the output move down the
    rows with the point; the bias row stays. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's stored value at entry (p, q): max((agg(p, q) + h(p, q) · s(p, 0)) + b(0, q), 0). -/
theorem pay3_apply (v0 v2 : Vec Ideal S10000x64 .f32) (v4 : Vec Ideal S10000x1 .f32) (v6 : Vec Ideal S1x64 .f32)
    (p : Fin 10000) (q : Fin 64) :
    k3_pay1 (F := Ideal) v0 v2 v4 v6 (ix2 p q)
      = max (v0 (ix2 p q) + v2 (ix2 p q) * v4 (ix2 p (0 : Fin 1)) + v6 (ix2 (0 : Fin 1) q)) (Ideal.ofBits .f32 0x00000000#32) := by
  unfold k3_pay1
  simp only [shapeCast_self, maximumf_apply, addf_apply, mulf_apply, broadcast_apply]
  rw [Cert.LibUnitAxes.broadcastTo_a1_ab_apply, broadcastTo_1b_ab_apply]
  rfl

/-- What point t writes back is block t of the whole-array combination. -/
theorem flushed3 (c : Dev nD) (t : Fin cfg3.N) :
    (dat3 V c).flushed 4 t = ((cfg3.win 4).blk t).view.read (Elt Ideal)
      (combineW (V c main_v56) (V c main_v44) (V c main_v12) (V c main_v57)) := by
  show (cfg3.win 4).cut (grid3.coords t) ((dat3 V c).after 4 t) = _
  rw [after3_4]
  unfold out3_4
  rw [View.canon_unit_zero hz]
  simp only [View.ld_unit_zero (S := S10000x64) hz, View.ld_unit_zero (S := S10000x1) hz, View.ld_unit_zero (S := S1x64) hz]
  obtain ⟨e00, e01, e10, e11, e20, e21, e30, e31, e40, e41⟩ := idx_facts3 t
  funext j
  show k3_pay1 (iblk3 V c 0 t) (iblk3 V c 1 t) (iblk3 V c 2 t) (iblk3 V c 3 t) j
    = combineW (V c main_v56) (V c main_v44) (V c main_v12) (V c main_v57) (((cfg3.win 4).blk t).view.emb j)
  refine (congrArg (k3_pay1 (iblk3 V c 0 t) (iblk3 V c 1 t) (iblk3 V c 2 t) (iblk3 V c 3 t)) (eq_ix2 j)).trans ?_
  refine (pay3_apply _ _ _ _ (j 0) (j 1)).trans ?_
  refine Eq.symm (((congrArg (combineW (V c main_v56) (V c main_v44) (V c main_v12) (V c main_v57))
    (eq_ix2 (((cfg3.win 4).blk t).view.emb j))).trans (combineW_apply _ _ _ _ _ _)).trans ?_)
  refine congrArg₂ max (congrArg₂ (· + ·) (congrArg₂ (· + ·) ?_ (congrArg₂ (· * ·) ?_ ?_)) ?_) rfl
  · show V c main_v56 _ = V c main_v56 (((cfg3.win 0).blk t).view.emb (ix2 (j 0) (j 1)))
    refine congrArg (V c main_v56) ?_
    funext a; apply Fin.ext
    match a with
    | ⟨0, _⟩ =>
      show win3_4.index t (0 : Fin 2) * 10000 + 1 * (j 0).val = win3_0.index t (0 : Fin 2) * 10000 + 1 * (j 0).val
      omega
    | ⟨1, _⟩ =>
      show win3_4.index t (1 : Fin 2) * 64 + 1 * (j 1).val = win3_0.index t (1 : Fin 2) * 64 + 1 * (j 1).val
      omega
  · show V c main_v44 _ = V c main_v44 (((cfg3.win 1).blk t).view.emb (ix2 (j 0) (j 1)))
    refine congrArg (V c main_v44) ?_
    funext a; apply Fin.ext
    match a with
    | ⟨0, _⟩ =>
      show win3_4.index t (0 : Fin 2) * 10000 + 1 * (j 0).val = win3_1.index t (0 : Fin 2) * 10000 + 1 * (j 0).val
      omega
    | ⟨1, _⟩ =>
      show win3_4.index t (1 : Fin 2) * 64 + 1 * (j 1).val = win3_1.index t (1 : Fin 2) * 64 + 1 * (j 1).val
      omega
  · show V c main_v12 _ = V c main_v12 (((cfg3.win 2).blk t).view.emb (ix2 (j 0) (0 : Fin 1)))
    refine congrArg (V c main_v12) ?_
    funext a; apply Fin.ext
    match a with
    | ⟨0, _⟩ =>
      show win3_4.index t (0 : Fin 2) * 10000 + 1 * (j 0).val = win3_2.index t (0 : Fin 2) * 10000 + 1 * (j 0).val
      omega
    | ⟨1, _⟩ =>
      show 0 = win3_2.index t (1 : Fin 2) * 1 + 1 * 0
      omega
  · show V c main_v57 _ = V c main_v57 (((cfg3.win 3).blk t).view.emb (ix2 (0 : Fin 1) (j 1)))
    refine congrArg (V c main_v57) ?_
    funext a; apply Fin.ext
    match a with
    | ⟨0, _⟩ =>
      show 0 = win3_3.index t (0 : Fin 2) * 1 + 1 * 0
      omega
    | ⟨1, _⟩ =>
      show win3_4.index t (1 : Fin 2) * 64 + 1 * (j 1).val = win3_3.index t (1 : Fin 2) * 64 + 1 * (j 1).val
      omega

/-- An index of the output array is in point t's block iff each coordinate is in the block's range. -/
theorem mem_blk3 (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v58).slice (win3_4.rect t)).set ↔ _
  rw [View.set_slice_whole, Rect.mem_set_unit]
  exact Iff.rfl

/-- Row r lies in the block of point r / 10000: the blocks tile the array. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have ht : (i 0).val / 10000 < cfg3.N := by show _ < grid3.N; rw [N_3]; omega
  refine ⟨⟨(i 0).val / 10000, ht⟩, flush3_4 _, ?_⟩
  rw [mem_blk3]
  obtain ⟨-, -, -, -, -, -, -, -, e40, e41⟩ := idx_facts3 ⟨(i 0).val / 10000, ht⟩
  intro a
  match a with
  | ⟨0, _⟩ =>
    show win3_4.index _ (0 : Fin 2) * 10000 ≤ (i 0).val ∧ (i 0).val < win3_4.index _ (0 : Fin 2) * 10000 + 10000
    rw [e40]; show (i 0).val / 10000 * 10000 ≤ (i 0).val ∧ (i 0).val < (i 0).val / 10000 * 10000 + 10000
    omega
  | ⟨1, _⟩ =>
    show win3_4.index _ (1 : Fin 2) * 64 ≤ (i 1).val ∧ (i 1).val < win3_4.index _ (1 : Fin 2) * 64 + 64
    rw [e41]; omega

/-- After the region the output array is the whole-array combination of the four arrays the region found. -/
theorem final3 (c : Dev nD) :
    (dat3 V c).arrAt 4 cfg3.N = combineW (V c main_v56) (V c main_v44) (V c main_v12) (V c main_v57) :=
  (dat3 V c).arrAt_eq_of_cover 4 _ (fun t _ => flushed3 V c t) cover3

end Cert.KernelIdeal.Stage

end
-- ==== Proof.Region4.lean ====
/-
  The last kernel region: the final linear layer, one grid point, every window one whole block.  The body multiplies
  the 64 × 64 pooled features by the 64 × 6 weights into a zero accumulator and adds the 1 × 6 bias row spread over the
  64 rows: entry (p, q) is the sum over k < 64 of pooled(p, k) · weight(k, q), plus bias(0, q) — the host's product of
  the two arrays plus the host's broadcast of the row, entry by entry.  The one block is the whole output array.
-/
import proofs.«148578_j72164040507601_1_alg».proof.Proof.Gen.KernelIdeal.Frame
import proofs.«148578_j72164040507601_1_alg».proof.Proof.Gen.ReferenceIdeal.Read
import proofs.«148578_j72164040507601_1_alg».proof.Proof.LibPlainDot
import proofs.«148578_j72164040507601_1_alg».proof.Proof.LibUnitAxes
import proofs.«148578_j72164040507601_1_alg».proof.Proof.Region0
import Idealize.ShloMosaic.Lib.Pipeline.Value
import Idealize.ShloMosaic.Lib.ValueIdx
import Idealize.ShloMosaic.Lib.ValueLayout

set_option maxRecDepth 16384

noncomputable section

namespace Cert.KernelIdeal.Stage

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The linear layer over whole arrays, written with the host's operations: the product plus the bias row spread
    over the rows. -/
abbrev linearW (x : FVec Ideal Cert.ReferenceIdeal.S64x64 .f32) (w : FVec Ideal Cert.ReferenceIdeal.S64x6 .f32)
    (b : FVec Ideal Cert.ReferenceIdeal.S1x6 .f32) : FVec Ideal Cert.ReferenceIdeal.S64x6 .f32 :=
  addf (Host.dotGeneral Cert.ReferenceIdeal.dot_S64x64_S64x6_S64x6_1_0_0_1_n_n none x w)
    (broadcastInDim Cert.ReferenceIdeal.S64x6 ![0, 1] Cert.ReferenceIdeal.Gen.bcast_S1x6_S64x6_0_1 b)

/-- The linear layer at entry (p, q): the sum over k of x(p, k) · w(k, q), plus b(0, q). -/
theorem linearW_apply (x : FVec Ideal Cert.ReferenceIdeal.S64x64 .f32) (w : FVec Ideal Cert.ReferenceIdeal.S64x6 .f32)
    (b : FVec Ideal Cert.ReferenceIdeal.S1x6 .f32) (p : Fin 64) (q : Fin 6) :
    linearW x w b (ix2 p q) = (∑ k : Fin 64, x (ix2 p k) * w (ix2 k q)) + b (ix2 (0 : Fin 1) q) := by
  simp only [addf_apply]
  rw [Cert.LibUnitAxes.broadcastInDim_1b_ab_apply]
  exact congrArg (fun s => s + b (ix2 (0 : Fin 1) q))
    (Cert.LibPlainDot.dotGeneral_apply Cert.ReferenceIdeal.dot_S64x64_S64x6_S64x6_1_0_0_1_n_n rfl rfl rfl rfl
      Cert.ReferenceIdeal.Read.lhs_main_v99_0 Cert.ReferenceIdeal.Read.rhs_main_v99_1 none .single x w p q)

/-- Every window's one block sits at the origin. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The body product's left index keeps the output row. -/
theorem dotL4 (j : S64x6.Idx) (k : dot_S64x64_S64x6_S64x6_1_0_0_1_n_n.contr.Idx) :
    (dot_S64x64_S64x6_S64x6_1_0_0_1_n_n.lhsIdx j k 0).val = (j 0).val := by
  unfold DotDims.lhsIdx
  rw [dif_neg (show ¬(0 : Fin S64x64.rank) ∈ dot_S64x64_S64x6_S64x6_1_0_0_1_n_n.lhsBatch by decide), dif_pos (show (0 : Fin S64x64.rank) ∈ dot_S64x64_S64x6_S64x6_1_0_0_1_n_n.lhsNonContracting by decide)]
  rfl
/-- The body product's right index keeps the output column. -/
theorem dotR4 (j : S64x6.Idx) (k : dot_S64x64_S64x6_S64x6_1_0_0_1_n_n.contr.Idx) :
    (dot_S64x64_S64x6_S64x6_1_0_0_1_n_n.rhsIdx j k 1).val = (j 1).val := by
  unfold DotDims.rhsIdx
  rw [dif_neg (show ¬(1 : Fin S64x6.rank) ∈ dot_S64x64_S64x6_S64x6_1_0_0_1_n_n.rhsBatch by decide), dif_pos (show (1 : Fin S64x6.rank) ∈ dot_S64x64_S64x6_S64x6_1_0_0_1_n_n.rhsNonContracting by decide)]
  rfl

/-- The body's stored value at entry (p, q): the sum over k of x(p, k) · w(k, q), plus b(0, q). -/
theorem pay4_apply (v0 : Vec Ideal S64x64 .f32) (v3 : Vec Ideal S64x6 .f32) (v6 : Vec Ideal S1x6 .f32) (p : Fin 64) (q : Fin 6) :
    k4_pay1 (F := Ideal) v0 v3 v6 (ix2 p q) = (∑ k : Fin 64, v0 (ix2 p k) * v3 (ix2 k q)) + v6 (ix2 (0 : Fin 1) q) := by
  unfold k4_pay1
  simp only [shapeCast_self, addf_apply]
  rw [broadcastTo_1b_ab_apply]
  exact congrArg (fun s => s + v6 (ix2 (0 : Fin 1) q))
    (Cert.LibPlainDot.matmul_zero_apply dot_S64x64_S64x6_S64x6_1_0_0_1_n_n rfl rfl rfl rfl dotL4 dotR4 none v0 v3 p q)

/-- What the one point writes back is the whole linear layer of the arrays the region found. -/
theorem flushed4 (c : Dev nD) (t : Fin cfg4.N) :
    (dat4 V c).flushed 3 t = ((cfg4.win 3).blk t).view.read (Elt Ideal)
      (linearW (V c main_v70) (V c main_arg7) (V c main_v71)) := by
  show (cfg4.win 3).cut (grid4.coords t) ((dat4 V c).after 3 t) = _
  rw [after4_3]
  unfold out4_3
  rw [View.canon_unit_zero hz]
  simp only [View.ld_unit_zero (S := S64x64) hz, View.ld_unit_zero (S := S64x6) hz, View.ld_unit_zero (S := S1x6) hz]
  obtain ⟨e00, e01, e10, e11, e20, e21, e30, e31⟩ := idx_facts4 t
  funext j
  show k4_pay1 (iblk4 V c 0 t) (iblk4 V c 1 t) (iblk4 V c 2 t) j
    = linearW (V c main_v70) (V c main_arg7) (V c main_v71) (((cfg4.win 3).blk t).view.emb j)
  refine (congrArg (k4_pay1 (iblk4 V c 0 t) (iblk4 V c 1 t) (iblk4 V c 2 t)) (eq_ix2 j)).trans ?_
  refine (pay4_apply _ _ _ (j 0) (j 1)).trans ?_
  refine Eq.symm (((congrArg (linearW (V c main_v70) (V c main_arg7) (V c main_v71))
    (eq_ix2 (((cfg4.win 3).blk t).view.emb j))).trans (linearW_apply _ _ _ _ _)).trans ?_)
  refine congrArg₂ (· + ·) (Finset.sum_congr rfl fun k _ => congrArg₂ (· * ·) ?_ ?_) ?_
  · show V c main_v70 _ = V c main_v70 (((cfg4.win 0).blk t).view.emb (ix2 (j 0) k))
    refine congrArg (V c main_v70) ?_
    funext a; apply Fin.ext
    match a with
    | ⟨0, _⟩ =>
      show win4_3.index t (0 : Fin 2) * 64 + 1 * (j 0).val = win4_0.index t (0 : Fin 2) * 64 + 1 * (j 0).val
      omega
    | ⟨1, _⟩ =>
      show k.val = win4_0.index t (1 : Fin 2) * 64 + 1 * k.val
      omega
  · show V c main_arg7 _ = V c main_arg7 (((cfg4.win 1).blk t).view.emb (ix2 k (j 1)))
    refine congrArg (V c main_arg7) ?_
    funext a; apply Fin.ext
    match a with
    | ⟨0, _⟩ =>
      show k.val = win4_1.index t (0 : Fin 2) * 64 + 1 * k.val
      omega
    | ⟨1, _⟩ =>
      show win4_3.index t (1 : Fin 2) * 6 + 1 * (j 1).val = win4_1.index t (1 : Fin 2) * 6 + 1 * (j 1).val
      omega
  · show V c main_v71 _ = V c main_v71 (((cfg4.win 2).blk t).view.emb (ix2 (0 : Fin 1) (j 1)))
    refine congrArg (V c main_v71) ?_
    funext a; apply Fin.ext
    match a with
    | ⟨0, _⟩ =>
      show 0 = win4_2.index t (0 : Fin 2) * 1 + 1 * 0
      omega
    | ⟨1, _⟩ =>
      show win4_3.index t (1 : Fin 2) * 6 + 1 * (j 1).val = win4_2.index t (1 : Fin 2) * 6 + 1 * (j 1).val
      omega

/-- An index of the output array is in point t's block iff each coordinate is in the block's range. -/
theorem mem_blk4 (t : Fin cfg4.N) (i : S64x6.Idx) :
    i ∈ ((cfg4.win 3).blk t).view.set ↔ ∀ a : Fin 2, win4_3.index t a * S64x6.size a ≤ (i a).val ∧ (i a).val < win4_3.index t a * S64x6.size a + S64x6.size a := by
  show i ∈ ((View.whole main_v72).slice (win4_3.rect t)).set ↔ _
  rw [View.set_slice_whole, Rect.mem_set_unit]
  exact Iff.rfl

/-- The one block is the whole array. -/
theorem cover4 (i : S64x6.Idx) :
    ∃ t : Fin cfg4.N, (cfg4.win 3).flush t = true ∧ i ∈ ((cfg4.win 3).blk t).view.set := by
  have hi0 : (i 0).val < 64 := (i 0).isLt
  have hi1 : (i 1).val < 6 := (i 1).isLt
  refine ⟨t4_0, flush4_3 _, ?_⟩
  rw [mem_blk4]
  obtain ⟨-, -, -, -, -, -, e30, e31⟩ := idx_facts4 t4_0
  intro a
  match a with
  | ⟨0, _⟩ =>
    show win4_3.index _ (0 : Fin 2) * 64 ≤ (i 0).val ∧ (i 0).val < win4_3.index _ (0 : Fin 2) * 64 + 64
    rw [e30]; omega
  | ⟨1, _⟩ =>
    show win4_3.index _ (1 : Fin 2) * 6 ≤ (i 1).val ∧ (i 1).val < win4_3.index _ (1 : Fin 2) * 6 + 6
    rw [e31]; omega

/-- After the region the output array is the whole linear layer of the three arrays the region found. -/
theorem final4 (c : Dev nD) :
    (dat4 V c).arrAt 3 cfg4.N = linearW (V c main_v70) (V c main_arg7) (V c main_v71) :=
  (dat4 V c).arrAt_eq_of_cover 3 _ (fun t _ => flushed4 V c t) cover4

end Cert.KernelIdeal.Stage

end
-- ==== Proof.Stages.lean ====
/-
  The walk through the kernel program, stage by stage.  The buffer contents at each of the nine segment boundaries are
  a fold from the launch memory: a stretch of host operations applies each operation's function to the contents
  before it, a kernel region replaces its output array by what its blocks wrote and leaves every other buffer as it
  was.  Walking that fold, each buffer the computation goes through is shown to hold the SAME value as the matching
  stage of the reference program, as a function of the nine argument arrays:

    * the edge endpoints, the degree's inverse square root, the self-loop column and the edge norm come from the same
      host operations on both sides; the kernel's casts of [n] arrays to [n, 1] and [1, n] are the reference's
      broadcasts along one dimension (no element moves);
    * each matrix-product region holds the host's product of the same two arrays;
    * each combination region holds max((agg + h · s) + b, 0), the reference's sum, sum and relu;
    * the gathers, the scatter-adds, the pooling quotient are the same host operations applied to equal operands,
      and are never opened;
    * the last region holds the host's product plus the bias row.

  A buffer a stretch or region does not write is carried unchanged from boundary to boundary.
-/
import proofs.«148578_j72164040507601_1_alg».proof.Proof.KernelRun
import proofs.«148578_j72164040507601_1_alg».proof.Proof.Region0
import proofs.«148578_j72164040507601_1_alg».proof.Proof.Region1
import proofs.«148578_j72164040507601_1_alg».proof.Proof.Region2
import proofs.«148578_j72164040507601_1_alg».proof.Proof.Region3
import proofs.«148578_j72164040507601_1_alg».proof.Proof.Region4
import proofs.«148578_j72164040507601_1_alg».proof.Proof.LibUnitAxes
import proofs.«148578_j72164040507601_1_alg».proof.Proof.Gen.ReferenceIdeal.Read
import Idealize.ShloMosaic.Lib.StableHlo.Run

set_option maxRecDepth 16384

noncomputable section

namespace Cert.KernelIdeal.Stage

open Idealize.ShloMosaic Idealize.ShloMosaic.TcCoe Idealize.SL.Sem Idealize.ShloMosaic.ValueIdx
open Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-- A buffer no operation of a host stretch writes holds after the stretch what it held before. -/
macro "keep_host" : tactic => `(tactic|
  (refine StableHlo.after_of_forall_not_mem _ _ (List.forall_iff_forall_mem.mp ?_)
   simp only [hostOps0, hostOps1, hostOps3, hostOps4, List.Forall, StableHlo.nullary_writes, StableHlo.unary_writes,
     StableHlo.binary_writes, StableHlo.ternary_writes, StableHlo.quaternary_writes, StableHlo.reshape_writes,
     StableHlo.binaryIndexed_writes, Finset.mem_singleton]
   repeat' apply And.intro
   all_goals exact StableHlo.devRef_ne_of_ne (by decide)))

set_option maxHeartbeats 8000000 in
/-- The reference computes the edge norm once per layer, from the same operands by the same operations: the second
    layer's norm column is the first layer's. -/
theorem norm_again (x1 : (⟨Cert.ReferenceIdeal.S2x3200000, .i32⟩ : BufTy).Contents (Elt Ideal)) :
    val_main_v72 (F := Ideal) x1 = val_main_v34 (F := Ideal) x1 := by
  unfold val_main_v72 val_main_v64 val_main_v56 val_main_v55 val_main_v54 val_main_v51 val_main_v50 val_main_c_8 val_main_v53 val_main_v52 val_main_c_9 val_main_v63 val_main_v62 val_main_v61 val_main_v58 val_main_v57 val_main_c_10 val_main_v60 val_main_v59 val_main_c_11
  unfold val_main_v34 val_main_v26 val_main_v18 val_main_v17 val_main_v16 val_main_v13 val_main_v12 val_main_c val_main_v15 val_main_v14 val_main_c_2 val_main_v25 val_main_v24 val_main_v23 val_main_v20 val_main_v19 val_main_c_3 val_main_v22 val_main_v21 val_main_c_4
  rfl

/-! ## The host stretches, over any contents

Each stretch is read at the buffer it is wanted at, from ANY contents before it of which the buffers the stretch
reads hold the reference's stages: the stretch's operations are the reference's, on equal operands. -/

section HostStretches

variable (Wx : Valuation τ sig (Elt Ideal))

set_option maxHeartbeats 8000000 in
/-- The messages of the first layer, gathered at the edge sources, scaled by the edge norm and summed per destination:
    the reference's stage, when the stretch finds the endpoints, the norm column and the features at the reference's. -/
theorem host1_v41 (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x64, .f32⟩ : BufTy).Contents (Elt Ideal))
    (h1 : Wx (Proc.devRef .tc main_v1) = val_main_v1 (F := Ideal) x1) (h3 : Wx (Proc.devRef .tc main_v3) = val_main_v3 (F := Ideal) x1)
    (h28 : Wx (Proc.devRef .tc main_v28) = val_main_v34 (F := Ideal) x1) (h29 : Wx (Proc.devRef .tc main_v29) = val_main_v11 (F := Ideal) x0 x3) :
    StableHlo.after hostOps1 Wx (Proc.devRef .tc main_v41) = val_main_v39 (F := Ideal) x0 x1 x3 := by
  after_results
  rw [h1, h3, h28, h29]
  unfold val_main_v39 val_main_v37 val_main_cst_7 val_main_v38 val_main_v36 val_main_v33 val_main_v32 val_main_v31 val_main_v28 val_main_v27 val_main_c_5 val_main_v30 val_main_v29 val_main_c_6 val_main_v35
  rfl

/-- The first bias as a row: a cast of [64] to [1, 64] on the kernel's side, a broadcast along dimension 1 on the
    reference's. -/
theorem host1_v42 (x4 : (⟨Cert.ReferenceIdeal.S64, .f32⟩ : BufTy).Contents (Elt Ideal)) (h4 : Wx (Proc.devRef .tc main_arg4) = x4) :
    StableHlo.after hostOps1 Wx (Proc.devRef .tc main_v42) = val_main_v45 (F := Ideal) x4 := by
  after_results
  rw [h4]
  exact Cert.LibUnitAxes.shapeCast_a_1a_eq_broadcastInDim x4 _ Cert.ReferenceIdeal.Gen.bcast_S64_S1x64_1

set_option maxHeartbeats 8000000 in
/-- The messages of the second layer (the reference recomputes the edge norm for this layer from the same operands;
    the kernel reuses the first layer's). -/
theorem host3_v56 (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal))
    (h1 : Wx (Proc.devRef .tc main_v1) = val_main_v1 (F := Ideal) x1) (h3 : Wx (Proc.devRef .tc main_v3) = val_main_v3 (F := Ideal) x1)
    (h28 : Wx (Proc.devRef .tc main_v28) = val_main_v34 (F := Ideal) x1)
    (h44 : Wx (Proc.devRef .tc main_v44) = val_main_v49 (F := Ideal) x0 x1 x3 x4 x5) :
    StableHlo.after hostOps3 Wx (Proc.devRef .tc main_v56) = val_main_v77 (F := Ideal) x0 x1 x3 x4 x5 := by
  after_results
  rw [h1, h3, h28, h44]
  unfold val_main_v77 val_main_v75 val_main_cst_14 val_main_v76 val_main_v74 val_main_v71 val_main_v70 val_main_v69 val_main_v66 val_main_v65 val_main_c_12 val_main_v68 val_main_v67 val_main_c_13 val_main_v73
  rw [norm_again]
  rfl

/-- The second bias as a row. -/
theorem host3_v57 (x6 : (⟨Cert.ReferenceIdeal.S64, .f32⟩ : BufTy).Contents (Elt Ideal)) (h6 : Wx (Proc.devRef .tc main_arg6) = x6) :
    StableHlo.after hostOps3 Wx (Proc.devRef .tc main_v57) = val_main_v83 (F := Ideal) x6 := by
  after_results
  rw [h6]
  exact Cert.LibUnitAxes.shapeCast_a_1a_eq_broadcastInDim x6 _ Cert.ReferenceIdeal.Gen.bcast_S64_S1x64_1

set_option maxHeartbeats 8000000 in
/-- The pooled features: per graph, the sum of its nodes' features over the node count clamped below at one. -/
theorem host4_v70 (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S100000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal))
    (h2 : Wx (Proc.devRef .tc main_arg2) = x2) (h58 : Wx (Proc.devRef .tc main_v58) = val_main_v86 (F := Ideal) x0 x1 x3 x4 x5 x6) :
    StableHlo.after hostOps4 Wx (Proc.devRef .tc main_v70) = val_main_v98 (F := Ideal) x0 x1 x2 x3 x4 x5 x6 := by
  after_results
  rw [h2, h58]
  unfold val_main_v98 val_main_v89 val_main_v87 val_main_cst_15 val_main_v88 val_main_v97 val_main_v96 val_main_v95 val_main_v93 val_main_v91 val_main_cst_17 val_main_v92 val_main_v90 val_main_cst_16 val_main_v94 val_main_cst_18
  rfl

/-- The last bias as a row. -/
theorem host4_v71 (x8 : (⟨Cert.ReferenceIdeal.S6, .f32⟩ : BufTy).Contents (Elt Ideal)) (h8 : Wx (Proc.devRef .tc main_arg8) = x8) :
    StableHlo.after hostOps4 Wx (Proc.devRef .tc main_v71) = val_main_v100 (F := Ideal) x8 := by
  after_results
  rw [h8]
  exact Cert.LibUnitAxes.shapeCast_a_1a_eq_broadcastInDim x8 _ Cert.ReferenceIdeal.Gen.bcast_S6_S1x6_1

end HostStretches

/-! ## The launch memory through the first host stretch -/

theorem W1k_arg0 : W1 m ρ c (Proc.devRef .tc main_arg0) = W0 m ρ c (Proc.devRef .tc main_arg0) := by
  show StableHlo.after hostOps0 (W0 m ρ c) (Proc.devRef .tc main_arg0) = W0 m ρ c (Proc.devRef .tc main_arg0)
  keep_host

theorem W1k_arg3 : W1 m ρ c (Proc.devRef .tc main_arg3) = W0 m ρ c (Proc.devRef .tc main_arg3) := by
  show StableHlo.after hostOps0 (W0 m ρ c) (Proc.devRef .tc main_arg3) = W0 m ρ c (Proc.devRef .tc main_arg3)
  keep_host

theorem W1k_arg4 : W1 m ρ c (Proc.devRef .tc main_arg4) = W0 m ρ c (Proc.devRef .tc main_arg4) := by
  show StableHlo.after hostOps0 (W0 m ρ c) (Proc.devRef .tc main_arg4) = W0 m ρ c (Proc.devRef .tc main_arg4)
  keep_host

theorem W1k_arg5 : W1 m ρ c (Proc.devRef .tc main_arg5) = W0 m ρ c (Proc.devRef .tc main_arg5) := by
  show StableHlo.after hostOps0 (W0 m ρ c) (Proc.devRef .tc main_arg5) = W0 m ρ c (Proc.devRef .tc main_arg5)
  keep_host

theorem W1k_arg6 : W1 m ρ c (Proc.devRef .tc main_arg6) = W0 m ρ c (Proc.devRef .tc main_arg6) := by
  show StableHlo.after hostOps0 (W0 m ρ c) (Proc.devRef .tc main_arg6) = W0 m ρ c (Proc.devRef .tc main_arg6)
  keep_host

/-- The edge sources, as the reference slices them. -/
theorem W1_v1 : W1 m ρ c (Proc.devRef .tc main_v1) = val_main_v1 (F := Ideal) (m ((c.tc : Thread nD τ).loc main_arg1)) := by
  show StableHlo.after hostOps0 (W0 m ρ c) (Proc.devRef .tc main_v1) = _
  after_results
  rfl

/-- The edge destinations. -/
theorem W1_v3 : W1 m ρ c (Proc.devRef .tc main_v3) = val_main_v3 (F := Ideal) (m ((c.tc : Thread nD τ).loc main_arg1)) := by
  show StableHlo.after hostOps0 (W0 m ρ c) (Proc.devRef .tc main_v3) = _
  after_results
  rfl

/-- The self-loop column 1/deg: the kernel casts the [n] array to [n, 1], the reference broadcasts it along dimension 0. -/
theorem W1_v12 : W1 m ρ c (Proc.devRef .tc main_v12) = val_main_v41 (F := Ideal) (m ((c.tc : Thread nD τ).loc main_arg1)) := by
  show StableHlo.after hostOps0 (W0 m ρ c) (Proc.devRef .tc main_v12) = _
  after_results
  exact Cert.LibUnitAxes.shapeCast_a_a1_eq_broadcastInDim (val_main_v40 (F := Ideal) (m ((c.tc : Thread nD τ).loc main_arg1))) _
    Cert.ReferenceIdeal.Gen.bcast_S100000_S100000x1_0

set_option maxHeartbeats 8000000 in
/-- The edge norm as a column: again a cast on the kernel's side, a broadcast along dimension 0 on the reference's. -/
theorem W1_v28 : W1 m ρ c (Proc.devRef .tc main_v28) = val_main_v34 (F := Ideal) (m ((c.tc : Thread nD τ).loc main_arg1)) := by
  show StableHlo.after hostOps0 (W0 m ρ c) (Proc.devRef .tc main_v28) = _
  after_results
  unfold val_main_v34 val_main_v26 val_main_v18 val_main_v10 val_main_v9 val_main_v7 val_main_v5 val_main_cst_0 val_main_v6 val_main_v3 val_main_v2 val_main_v4 val_main_cst val_main_v8 val_main_cst_1 val_main_v17 val_main_v16 val_main_v13 val_main_v1 val_main_v0 val_main_v12 val_main_c val_main_v15 val_main_v14 val_main_c_2 val_main_v25 val_main_v24 val_main_v23 val_main_v20 val_main_v19 val_main_c_3 val_main_v22 val_main_v21 val_main_c_4
  refine (Cert.LibUnitAxes.shapeCast_a_a1_eq_broadcastInDim _ _ Cert.ReferenceIdeal.Gen.bcast_S3200000_S3200000x1_0).trans ?_
  rfl

/-! ## Through the first product region -/

/-- The first layer's features: the whole product of the node features and the first weights. -/
theorem W2_v29 : W2 m ρ c (Proc.devRef .tc main_v29) = val_main_v11 (F := Ideal) (m ((c.tc : Thread nD τ).loc main_arg0)) (m ((c.tc : Thread nD τ).loc main_arg3)) :=
  (W2_arr m ρ c 2).trans ((final0 (V1 m ρ) c).trans
    (congrArg₂ (val_main_v11 (F := Ideal)) (W1k_arg0 m ρ c) (W1k_arg3 m ρ c)))

theorem W2_v1 : W2 m ρ c (Proc.devRef .tc main_v1) = val_main_v1 (F := Ideal) (m ((c.tc : Thread nD τ).loc main_arg1)) :=
  (W2_of_ne m ρ c main_v1 (by decide)).trans (W1_v1 m ρ c)
theorem W2_v3 : W2 m ρ c (Proc.devRef .tc main_v3) = val_main_v3 (F := Ideal) (m ((c.tc : Thread nD τ).loc main_arg1)) :=
  (W2_of_ne m ρ c main_v3 (by decide)).trans (W1_v3 m ρ c)
theorem W2_v12 : W2 m ρ c (Proc.devRef .tc main_v12) = val_main_v41 (F := Ideal) (m ((c.tc : Thread nD τ).loc main_arg1)) :=
  (W2_of_ne m ρ c main_v12 (by decide)).trans (W1_v12 m ρ c)
theorem W2_v28 : W2 m ρ c (Proc.devRef .tc main_v28) = val_main_v34 (F := Ideal) (m ((c.tc : Thread nD τ).loc main_arg1)) :=
  (W2_of_ne m ρ c main_v28 (by decide)).trans (W1_v28 m ρ c)
theorem W2_arg4 : W2 m ρ c (Proc.devRef .tc main_arg4) = (m ((c.tc : Thread nD τ).loc main_arg4)) :=
  (W2_of_ne m ρ c main_arg4 (by decide)).trans (W1k_arg4 m ρ c)
theorem W2_arg5 : W2 m ρ c (Proc.devRef .tc main_arg5) = (m ((c.tc : Thread nD τ).loc main_arg5)) :=
  (W2_of_ne m ρ c main_arg5 (by decide)).trans (W1k_arg5 m ρ c)
theorem W2_arg6 : W2 m ρ c (Proc.devRef .tc main_arg6) = (m ((c.tc : Thread nD τ).loc main_arg6)) :=
  (W2_of_ne m ρ c main_arg6 (by decide)).trans (W1k_arg6 m ρ c)

/-! ## Through the second host stretch: the first layer's messages, gathered, scaled and summed per destination -/

/-- The first layer's aggregated messages. -/
theorem W3_v41 : W3 m ρ c (Proc.devRef .tc main_v41) = val_main_v39 (F := Ideal) (m ((c.tc : Thread nD τ).loc main_arg0)) (m ((c.tc : Thread nD τ).loc main_arg1)) (m ((c.tc : Thread nD τ).loc main_arg3)) :=
  host1_v41 (W2 m ρ c) _ _ _ (W2_v1 m ρ c) (W2_v3 m ρ c) (W2_v28 m ρ c) (W2_v29 m ρ c)

/-- The first bias as a row: a cast of [64] to [1, 64] on the kernel's side, a broadcast along dimension 1 on the
    reference's. -/
theorem W3_v42 : W3 m ρ c (Proc.devRef .tc main_v42) = val_main_v45 (F := Ideal) (m ((c.tc : Thread nD τ).loc main_arg4)) :=
  host1_v42 (W2 m ρ c) _ (W2_arg4 m ρ c)

theorem W3k_v29 : W3 m ρ c (Proc.devRef .tc main_v29) = W2 m ρ c (Proc.devRef .tc main_v29) := by
  show StableHlo.after hostOps1 (W2 m ρ c) (Proc.devRef .tc main_v29) = W2 m ρ c (Proc.devRef .tc main_v29)
  keep_host

theorem W3k_v12 : W3 m ρ c (Proc.devRef .tc main_v12) = W2 m ρ c (Proc.devRef .tc main_v12) := by
  show StableHlo.after hostOps1 (W2 m ρ c) (Proc.devRef .tc main_v12) = W2 m ρ c (Proc.devRef .tc main_v12)
  keep_host

theorem W3k_v1 : W3 m ρ c (Proc.devRef .tc main_v1) = W2 m ρ c (Proc.devRef .tc main_v1) := by
  show StableHlo.after hostOps1 (W2 m ρ c) (Proc.devRef .tc main_v1) = W2 m ρ c (Proc.devRef .tc main_v1)
  keep_host

theorem W3k_v3 : W3 m ρ c (Proc.devRef .tc main_v3) = W2 m ρ c (Proc.devRef .tc main_v3) := by
  show StableHlo.after hostOps1 (W2 m ρ c) (Proc.devRef .tc main_v3) = W2 m ρ c (Proc.devRef .tc main_v3)
  keep_host

theorem W3k_v28 : W3 m ρ c (Proc.devRef .tc main_v28) = W2 m ρ c (Proc.devRef .tc main_v28) := by
  show StableHlo.after hostOps1 (W2 m ρ c) (Proc.devRef .tc main_v28) = W2 m ρ c (Proc.devRef .tc main_v28)
  keep_host

theorem W3k_arg5 : W3 m ρ c (Proc.devRef .tc main_arg5) = W2 m ρ c (Proc.devRef .tc main_arg5) := by
  show StableHlo.after hostOps1 (W2 m ρ c) (Proc.devRef .tc main_arg5) = W2 m ρ c (Proc.devRef .tc main_arg5)
  keep_host

theorem W3k_arg6 : W3 m ρ c (Proc.devRef .tc main_arg6) = W2 m ρ c (Proc.devRef .tc main_arg6) := by
  show StableHlo.after hostOps1 (W2 m ρ c) (Proc.devRef .tc main_arg6) = W2 m ρ c (Proc.devRef .tc main_arg6)
  keep_host

/-! ## Through the first combination region and the second product region -/

/-- The first layer's output: the reference's relu of the aggregated messages plus the scaled features plus the bias. -/
theorem W4_v43 : W4 m ρ c (Proc.devRef .tc main_v43) = val_main_v48 (F := Ideal) (m ((c.tc : Thread nD τ).loc main_arg0)) (m ((c.tc : Thread nD τ).loc main_arg1)) (m ((c.tc : Thread nD τ).loc main_arg3)) (m ((c.tc : Thread nD τ).loc main_arg4)) :=
  (W4_arr m ρ c 4).trans ((final1 (V3 m ρ) c).trans (by
    rw [show V3 m ρ c main_v41 = _ from W3_v41 m ρ c,
        show V3 m ρ c main_v29 = _ from (W3k_v29 m ρ c).trans (W2_v29 m ρ c),
        show V3 m ρ c main_v12 = _ from (W3k_v12 m ρ c).trans (W2_v12 m ρ c),
        show V3 m ρ c main_v42 = _ from W3_v42 m ρ c]
    rfl))

theorem W4_arg5 : W4 m ρ c (Proc.devRef .tc main_arg5) = (m ((c.tc : Thread nD τ).loc main_arg5)) :=
  (W4_of_ne m ρ c main_arg5 (by decide)).trans ((W3k_arg5 m ρ c).trans (W2_arg5 m ρ c))

/-- The second layer's features: the whole product of the first layer's output and the second weights. -/
theorem W5_v44 : W5 m ρ c (Proc.devRef .tc main_v44) = val_main_v49 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (W5_arr m ρ c 2).trans ((final2 (V4 m ρ) c).trans (by
    rw [show V4 m ρ c main_v43 = _ from W4_v43 m ρ c, show V4 m ρ c main_arg5 = _ from W4_arg5 m ρ c]
    rfl))

theorem W5_v1 : W5 m ρ c (Proc.devRef .tc main_v1) = val_main_v1 (F := Ideal) (m ((c.tc : Thread nD τ).loc main_arg1)) :=
  (W5_of_ne m ρ c main_v1 (by decide)).trans ((W4_of_ne m ρ c main_v1 (by decide)).trans ((W3k_v1 m ρ c).trans (W2_v1 m ρ c)))
theorem W5_v3 : W5 m ρ c (Proc.devRef .tc main_v3) = val_main_v3 (F := Ideal) (m ((c.tc : Thread nD τ).loc main_arg1)) :=
  (W5_of_ne m ρ c main_v3 (by decide)).trans ((W4_of_ne m ρ c main_v3 (by decide)).trans ((W3k_v3 m ρ c).trans (W2_v3 m ρ c)))
theorem W5_v28 : W5 m ρ c (Proc.devRef .tc main_v28) = val_main_v34 (F := Ideal) (m ((c.tc : Thread nD τ).loc main_arg1)) :=
  (W5_of_ne m ρ c main_v28 (by decide)).trans ((W4_of_ne m ρ c main_v28 (by decide)).trans ((W3k_v28 m ρ c).trans (W2_v28 m ρ c)))
/-- The self-loop column is an input of the first combination region, which leaves it as it found it. -/
theorem W4_v12 : W4 m ρ c (Proc.devRef .tc main_v12) = val_main_v41 (F := Ideal) (m ((c.tc : Thread nD τ).loc main_arg1)) :=
  ((W4_arr m ρ c 2).trans (((dat1 (V3 m ρ) c).arrAt_in 2 rfl _).trans (A_eq1 (V3 m ρ) c 2))).trans
    ((W3k_v12 m ρ c).trans (W2_v12 m ρ c))
theorem W5_v12 : W5 m ρ c (Proc.devRef .tc main_v12) = val_main_v41 (F := Ideal) (m ((c.tc : Thread nD τ).loc main_arg1)) :=
  (W5_of_ne m ρ c main_v12 (by decide)).trans (W4_v12 m ρ c)
theorem W5_arg6 : W5 m ρ c (Proc.devRef .tc main_arg6) = (m ((c.tc : Thread nD τ).loc main_arg6)) :=
  (W5_of_ne m ρ c main_arg6 (by decide)).trans ((W4_of_ne m ρ c main_arg6 (by decide)).trans ((W3k_arg6 m ρ c).trans (W2_arg6 m ρ c)))

/-! ## Through the third host stretch: the second layer's messages -/

/-- The second layer's aggregated messages (the reference recomputes the edge norm for this layer from the same
    operands; the kernel reuses the first layer's). -/
theorem W6_v56 : W6 m ρ c (Proc.devRef .tc main_v56) = val_main_v77 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  host3_v56 (W5 m ρ c) _ _ _ _ _ (W5_v1 m ρ c) (W5_v3 m ρ c) (W5_v28 m ρ c) (W5_v44 m ρ c)

/-- The second bias as a row. -/
theorem W6_v57 : W6 m ρ c (Proc.devRef .tc main_v57) = val_main_v83 (F := Ideal) (m ((c.tc : Thread nD τ).loc main_arg6)) :=
  host3_v57 (W5 m ρ c) _ (W5_arg6 m ρ c)

theorem W6k_v44 : W6 m ρ c (Proc.devRef .tc main_v44) = W5 m ρ c (Proc.devRef .tc main_v44) := by
  show StableHlo.after hostOps3 (W5 m ρ c) (Proc.devRef .tc main_v44) = W5 m ρ c (Proc.devRef .tc main_v44)
  keep_host

theorem W6k_v12 : W6 m ρ c (Proc.devRef .tc main_v12) = W5 m ρ c (Proc.devRef .tc main_v12) := by
  show StableHlo.after hostOps3 (W5 m ρ c) (Proc.devRef .tc main_v12) = W5 m ρ c (Proc.devRef .tc main_v12)
  keep_host

/-! ## Through the second combination region -/

/-- The second layer's output. -/
theorem W7_v58 : W7 m ρ c (Proc.devRef .tc main_v58)
    = val_main_v86 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (W7_arr m ρ c 4).trans ((final3 (V6 m ρ) c).trans (by
    rw [show V6 m ρ c main_v56 = _ from W6_v56 m ρ c,
        show V6 m ρ c main_v44 = _ from (W6k_v44 m ρ c).trans (W5_v44 m ρ c),
        show V6 m ρ c main_v12 = _ from (W6k_v12 m ρ c).trans (W5_v12 m ρ c),
        show V6 m ρ c main_v57 = _ from W6_v57 m ρ c]
    rfl))

/-! ## Through the last host stretch: the mean over each graph's nodes -/

theorem W8k_arg2 : W8 m ρ c (Proc.devRef .tc main_arg2) = W7 m ρ c (Proc.devRef .tc main_arg2) := by
  show StableHlo.after hostOps4 (W7 m ρ c) (Proc.devRef .tc main_arg2) = W7 m ρ c (Proc.devRef .tc main_arg2)
  keep_host

theorem W8k_arg8 : W8 m ρ c (Proc.devRef .tc main_arg8) = W7 m ρ c (Proc.devRef .tc main_arg8) := by
  show StableHlo.after hostOps4 (W7 m ρ c) (Proc.devRef .tc main_arg8) = W7 m ρ c (Proc.devRef .tc main_arg8)
  keep_host

/-- The graph assignment is still the launch contents when the pooling reads it (nothing after it writes it, and it
    ends as launched). -/
theorem W7_arg2 : W7 m ρ c (Proc.devRef .tc main_arg2) = (m ((c.tc : Thread nD τ).loc main_arg2)) :=
  ((W9_of_ne m ρ c main_arg2 (by decide)).trans (W8k_arg2 m ρ c)).symm.trans (W9_main_arg2 m ρ c)
theorem W7_arg8 : W7 m ρ c (Proc.devRef .tc main_arg8) = (m ((c.tc : Thread nD τ).loc main_arg8)) :=
  ((W9_of_ne m ρ c main_arg8 (by decide)).trans (W8k_arg8 m ρ c)).symm.trans (W9_main_arg8 m ρ c)

/-- The pooled features: per graph, the sum of its nodes' features over the node count clamped below at one. -/
theorem W8_v70 : W8 m ρ c (Proc.devRef .tc main_v70)
    = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  host4_v70 (W7 m ρ c) _ _ _ _ _ _ _ (W7_arg2 m ρ c) (W7_v58 m ρ c)

/-- The last bias as a row. -/
theorem W8_v71 : W8 m ρ c (Proc.devRef .tc main_v71) = val_main_v100 (F := Ideal) (m ((c.tc : Thread nD τ).loc main_arg8)) :=
  host4_v71 (W7 m ρ c) _ (W7_arg8 m ρ c)

/-- The last weights, as the last region finds them, are the launch contents. -/
theorem V8_arg7 : V8 m ρ c main_arg7 = (m ((c.tc : Thread nD τ).loc main_arg7)) :=
  ((W9_arr m ρ c 1).trans (((dat4 (V8 m ρ) c).arrAt_in 1 rfl _).trans (A_eq4 (V8 m ρ) c 1))).symm.trans (W9_main_arg7 m ρ c)

/-! ## Through the last region: the result -/

/-- The program's result is the reference's last stage, as a function of the nine argument arrays. -/
theorem W9_v72 : W9 m ρ c (Proc.devRef .tc main_v72)
    = val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W9_arr m ρ c 3).trans ((final4 (V8 m ρ) c).trans (by
    rw [show V8 m ρ c main_v70 = _ from W8_v70 m ρ c, V8_arg7 m ρ c, show V8 m ρ c main_v71 = _ from W8_v71 m ρ c]
    rfl))

end Cert.KernelIdeal.Stage

end
-- ==== Proof.lean ====
/-
  A two-layer graph convolution, a mean over each graph's nodes and a linear layer: the Pallas program against its
  jnp reference, over the extended reals.

  Both programs compute, from the node features x, the edge list (src, dst), the graph assignment and the weights,

      deg   = (number of edges into each node) + 1,        d = deg^(-1/2),
      norm  = d[src] · d[dst]                              (one number per edge),
      conv(h, W, b) = relu( (Σ over edges into a node of (hW)[src] · norm)  +  (hW) · d·d  +  b ),
      out   = ( (Σ over a graph's nodes of conv(conv(x, W1, b1), W2, b2)) / max(count, 1) ) · Wlin + blin.

  The reference is host operations only.  The kernel program keeps the irregular parts (the gathers along edges, the
  sums per destination node and per graph, the quotient) as the SAME host operations, and puts the dense parts in five
  kernel regions: the two products hW blocked by rows, the two combinations relu((agg + h · s) + b) blocked by rows, and
  the final product plus bias in one block.  At the extended reals a change of float format is the identity, a kernel's
  product into a zero accumulator and the host's product are the same sum over k, and the combination's additions are
  grouped the same way on both sides, so no algebraic law beyond reading each operation at an entry is used, and the
  inputs' finiteness is never opened.

  The modules: KernelRun restates the kernel program's run with its result buffer named; Region0 … Region4 show that
  after each region its output array is one whole-array function of the arrays it found (a block is a restriction of
  that function, and the blocks tile the array); Stages walks the program's segments and identifies every buffer on
  the way with the matching stage of the reference as a function of the nine arguments.  Here the claims are
  assembled: the three frames (the reference's is its run with the result dropped), the empty idealization ledger, and
  the equality of the two results.
-/
import proofs.«148578_j72164040507601_1_alg».proof.Defs
import proofs.«148578_j72164040507601_1_alg».proof.Proof.Gen.Kernel
import proofs.«148578_j72164040507601_1_alg».proof.Proof.Gen.Kernel.Skeleton
import proofs.«148578_j72164040507601_1_alg».proof.Proof.Gen.Kernel.Launch
import proofs.«148578_j72164040507601_1_alg».proof.Proof.Gen.Kernel.Points
import proofs.«148578_j72164040507601_1_alg».proof.Proof.Gen.Kernel.Frame
import proofs.«148578_j72164040507601_1_alg».proof.Proof.Gen.KernelIdeal
import proofs.«148578_j72164040507601_1_alg».proof.Proof.Gen.KernelIdeal.Skeleton
import proofs.«148578_j72164040507601_1_alg».proof.Proof.Gen.KernelIdeal.Launch
import proofs.«148578_j72164040507601_1_alg».proof.Proof.Gen.KernelIdeal.Points
import proofs.«148578_j72164040507601_1_alg».proof.Proof.Gen.KernelIdeal.Frame
import proofs.«148578_j72164040507601_1_alg».proof.Proof.Gen.ReferenceIdeal
import proofs.«148578_j72164040507601_1_alg».proof.Proof.Gen.ReferenceIdeal.Run
import proofs.«148578_j72164040507601_1_alg».proof.Proof.Gen.ReferenceIdeal.Read
import proofs.«148578_j72164040507601_1_alg».proof.Proof.Gen.Pre_finite_inputs
import proofs.«148578_j72164040507601_1_alg».proof.Proof.Stages
import Idealize.ShloMosaic.Adequacy
import Idealize.ShloMosaic.Init

noncomputable section

namespace Cert.Proof

open Idealize.ShloMosaic Idealize.SL.Sem

/-- The printed kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the nine arguments both programs end with the same result: the reference's last stage
    as a function of the arguments. -/
theorem algebraic : Cert.algebraic_KernelIdeal_ReferenceIdeal := by
  intro m ρ m' ρ' _ hagree
  refine ⟨fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Stage.W9_v72 m ρ c), (h c).2⟩)
      (Cert.KernelIdeal.Stage.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v102_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
